-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S512x1024 : Shape := ⟨2, ![512, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S256x1024, .bf16⟩
  | .local _ .vmem, ⟨12, _⟩ => ⟨S256x1024, .bf16⟩
  | .local _ .vmem, ⟨13, _⟩ => ⟨S4096x1024, .bf16⟩
  | .local _ .vmem, ⟨14, _⟩ => ⟨S4096x1024, .bf16⟩
  | .local _ .vmem, ⟨15, _⟩ => ⟨S256x1024, .f32⟩
  | .local _ .vmem, ⟨16, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S4096x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S512x1024_S512x1024_0_0 : (Rect.unit (s := S512x1024) ![0, 0] S512x1024.size inb_S512x1024_S512x1024_0_0).PackedRows (EltTy.packing .bf16)
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S256x4096_S256 : S256x4096.Reduces [1] S256
  shapeCasts_S256_S256x1 : S256.ShapeCasts S256x1
  broadcasts_S256x1_S256x4096 : S256x1.Broadcasts S256x4096
  dot_S512x1024_S1024x1024_S512x1024_1_1_0_0_n_n_wf : DotDims.WF S512x1024 S1024x1024 S512x1024 [1] [1] [0] [0] [] []
  dot_S256x1024_S4096x1024_S256x4096_1_1_0_0_n_n_wf : DotDims.WF S256x1024 S4096x1024 S256x4096 [1] [1] [0] [0] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .bf16 = 32 ∨ (Rect.block (s := S4096x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .bf16 = 32 ∨ (Rect.block (s := S4096x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S4096x1024.size a
  hwx1_0 : ∀ i : grid1.Coords, EltTy.bits .bf16 = 32 ∨ (Rect.block (s := S4096x1024) S256x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x1024.size a ≤ S4096x1024.size a
  hwx1_2 : ∀ i : grid1.Coords, EltTy.bits .bf16 = 32 ∨ (Rect.block (s := S4096x1024) S4096x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S4096x1024.size a
  hwx1_3 : ∀ i : grid1.Coords, EltTy.bits .f32 = 32 ∨ (Rect.block (s := S4096x1024) S256x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S4096x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S1024x4096, .f32⟩
  | .hbm, ⟨11, _⟩ => ⟨S4096x4096, .f32⟩
  | .hbm, ⟨12, _⟩ => ⟨S_, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S4096x4096, .f32⟩
  | .hbm, ⟨29, _⟩ => ⟨S4096x4096, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KernelRun.lean ====
/-
  The kernel program's run with its result array named.

  The program is two pipelined regions in sequence: the first writes the three projections, the second reads them and
  writes the result.  Every weakly fair execution terminates without a fault; at the end the result buffer holds what
  the second region's write-backs leave of its output array, and the four arguments are as launched.
-/
import proofs.«123159_j63161789055035_2_alg».proof.Proof.Gen.KernelIdeal.Frame

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer at the last boundary is the second region's output array after all its write-backs. -/
theorem result_arr (c : Dev nD) :
    W2 m ρ c (Proc.devRef .tc main_v1) = (dat1 (V1 m ρ) c).arrAt 3 cfg1.N :=
  W2_arr m ρ c 3

/-- The three projections, as the second region finds them, are the first region's output arrays after all its
    write-backs. -/
theorem q_arr (c : Dev nD) : V1 m ρ c main_v0_0 = (dat0 (V0 m ρ) c).arrAt 4 cfg0.N := W1_arr m ρ c 4
theorem k_arr (c : Dev nD) : V1 m ρ c main_v0_1 = (dat0 (V0 m ρ) c).arrAt 5 cfg0.N := W1_arr m ρ c 5
theorem v_arr (c : Dev nD) : V1 m ρ c main_v0_2 = (dat0 (V0 m ρ) c).arrAt 6 cfg0.N := W1_arr m ρ c 6

set_option backward.isDefEq.respectTransparency.types false in
/-- Every weakly fair execution terminates, nothing faulting; the result buffer ends at the last boundary's contents
    and the arguments as launched. -/
theorem run_boundary : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Out

end
-- ==== Proof.LibDotT.lean ====
/- A matrix product against a transposed right operand, [R, K] × [C, K] → [R, C] (both operands contracted along their second
   axis), into a zero accumulator, read at an index over the extended reals: entry (p, q) is the sum over k of
   lhs(p, k) · rhs(q, k). For any dimension record with these lists. Names no program. -/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

namespace Cert.LibDotT

open Idealize.ShloMosaic Idealize.ShloMosaic.ValueIdx

/-- The dimension numbers of a `[R, K] × [C, K] → [R, C]` product: the second axis of each operand is contracted. -/
abbrev dotT (R K C : Nat)
    (wf : DotDims.WF ⟨2, ![R, K]⟩ ⟨2, ![C, K]⟩ ⟨2, ![R, C]⟩ [1] [1] [0] [0] [] []) :
    DotDims ⟨2, ![R, K]⟩ ⟨2, ![C, K]⟩ ⟨2, ![R, C]⟩ where
  lhsContracting := [1]
  rhsContracting := [1]
  lhsNonContracting := [0]
  rhsNonContracting := [0]
  lhsBatch := []
  rhsBatch := []
  wf := wf

section
variable {R K C : Nat} (wf : DotDims.WF ⟨2, ![R, K]⟩ ⟨2, ![C, K]⟩ ⟨2, ![R, C]⟩ [1] [1] [0] [0] [] [])

/-- The left operand's index for output `(p, q)` and contraction coordinate `k` is `(p, k)`. -/
theorem dotT_lhsIdx (p : Fin R) (q : Fin C) (k : Fin K) :
    (dotT R K C wf).lhsIdx (ix2 p q) ((contrEquiv1 (dotT R K C wf) K rfl rfl).symm k) = ix2 p k := by
  have hk := contrEquiv1_symm_val (dotT R K C wf) K rfl rfl k
  funext a
  refine Fin.ext ?_
  match a with
  | ⟨0, _⟩ =>
    show ((dotT R K C wf).lhsIdx (ix2 p q) ((contrEquiv1 (dotT R K C wf) K rfl rfl).symm k) 0).val = p.val
    unfold DotDims.lhsIdx
    rw [dif_neg (show ¬(0 : Fin 2) ∈ (dotT R K C wf).lhsBatch from List.not_mem_nil),
      dif_pos (show (0 : Fin 2) ∈ (dotT R K C wf).lhsNonContracting from List.mem_singleton.mpr rfl)]
    rfl
  | ⟨1, _⟩ =>
    exact ((dotT R K C wf).lhsIdx_val_of_single (cl := (1 : Fin 2)) rfl (ix2 p q) _).trans hk

/-- The right operand's index for output `(p, q)` and contraction coordinate `k` is `(q, k)`. -/
theorem dotT_rhsIdx (p : Fin R) (q : Fin C) (k : Fin K) :
    (dotT R K C wf).rhsIdx (ix2 p q) ((contrEquiv1 (dotT R K C wf) K rfl rfl).symm k) = ix2 q k := by
  have hk := contrEquiv1_symm_val (dotT R K C wf) K rfl rfl k
  funext a
  refine Fin.ext ?_
  match a with
  | ⟨0, _⟩ =>
    show ((dotT R K C wf).rhsIdx (ix2 p q) ((contrEquiv1 (dotT R K C wf) K rfl rfl).symm k) 0).val = q.val
    unfold DotDims.rhsIdx
    rw [dif_neg (show ¬(0 : Fin 2) ∈ (dotT R K C wf).rhsBatch from List.not_mem_nil),
      dif_pos (show (0 : Fin 2) ∈ (dotT R K C wf).rhsNonContracting from List.mem_singleton.mpr rfl)]
    rfl
  | ⟨1, _⟩ =>
    exact ((dotT R K C wf).rhsIdx_val_of_single (cr := (1 : Fin 2)) rfl (ix2 p q) _).trans hk

/-- THE PRODUCT AGAINST THE TRANSPOSE INTO A ZERO ACCUMULATOR AT `(p, q)`: the sum over `k` of `lhs (p, k) * rhs (q, k)`. -/
theorem matmulT_zero_apply {φ₁ φ₂ : FTy} (prec : Option ContractPrecision)
    (lhs : FVec Ideal ⟨2, ![R, K]⟩ φ₁) (rhs : FVec Ideal ⟨2, ![C, K]⟩ φ₂) (p : Fin R) (q : Fin C) :
    FloatOps.matmul (dotT R K C wf) prec lhs rhs (constant ⟨2, ![R, C]⟩ .f32 0x00000000#32) (ix2 p q)
      = ∑ k : Fin K, lhs (ix2 p k) * rhs (ix2 q k) := by
  rw [Ideal.matmul_constant_zero_apply, ← Equiv.sum_comp (contrEquiv1 (dotT R K C wf) K rfl rfl).symm]
  refine Finset.sum_congr rfl fun k _ => ?_
  rw [dotT_lhsIdx wf p q k, dotT_rhsIdx wf p q k]

end

end Cert.LibDotT

end
-- ==== Proof.ProjPayload.lean ====
/-
  The first region's body at an index.  Each of its three stores holds, at (p, c) of a 512 × 1024 block, the sum
  over k of x(p, k) · w(c, k): the block of inputs times the transpose of a weight matrix into a zero accumulator;
  the narrowings to bf16 before and after the product are the identity on the extended reals.
-/
import proofs.«123159_j63161789055035_2_alg».proof.Proof.Gen.KernelIdeal.Skeleton
import proofs.«123159_j63161789055035_2_alg».proof.Proof.LibDotT
import Idealize.ShloMosaic.Lib.ValueIdx

noncomputable section

namespace Cert.KernelIdeal.ProjPayload

open Cert.KernelIdeal Cert.KernelIdeal.Gen Idealize.ShloMosaic Idealize.ShloMosaic.ValueIdx

/-- The stored block of the first projection at (p, c). -/
theorem pay2_apply (x : Vec Ideal S512x1024 .f32) (w : Vec Ideal S1024x1024 .f32) (p : Fin 512) (c : Fin 1024) :
    k0_pay2 x w (ix2 p c) = ∑ k : Fin 1024, x (ix2 p k) * w (ix2 c k) := by
  unfold k0_pay2 k0_pay1
  exact Cert.LibDotT.matmulT_zero_apply (R := 512) (K := 1024) (C := 1024)
    Facts₀.dot_S512x1024_S1024x1024_S512x1024_1_1_0_0_n_n_wf none
    (truncf .bf16 x bitsLt_bf16_f32) (truncf .bf16 w bitsLt_bf16_f32) p c

/-- The stored block of the second projection at (p, c). -/
theorem pay3_apply (x : Vec Ideal S512x1024 .f32) (w : Vec Ideal S1024x1024 .f32) (p : Fin 512) (c : Fin 1024) :
    k0_pay3 x w (ix2 p c) = ∑ k : Fin 1024, x (ix2 p k) * w (ix2 c k) := by
  unfold k0_pay3 k0_pay1
  exact Cert.LibDotT.matmulT_zero_apply (R := 512) (K := 1024) (C := 1024)
    Facts₀.dot_S512x1024_S1024x1024_S512x1024_1_1_0_0_n_n_wf none
    (truncf .bf16 x bitsLt_bf16_f32) (truncf .bf16 w bitsLt_bf16_f32) p c

/-- The stored block of the third projection at (p, c). -/
theorem pay4_apply (x : Vec Ideal S512x1024 .f32) (w : Vec Ideal S1024x1024 .f32) (p : Fin 512) (c : Fin 1024) :
    k0_pay4 x w (ix2 p c) = ∑ k : Fin 1024, x (ix2 p k) * w (ix2 c k) := by
  unfold k0_pay4 k0_pay1
  exact Cert.LibDotT.matmulT_zero_apply (R := 512) (K := 1024) (C := 1024)
    Facts₀.dot_S512x1024_S1024x1024_S512x1024_1_1_0_0_n_n_wf none
    (truncf .bf16 x bitsLt_bf16_f32) (truncf .bf16 w bitsLt_bf16_f32) p c

end Cert.KernelIdeal.ProjPayload

end
-- ==== Proof.Spec.lean ====
/-
  Single-head attention over the extended reals, as functions of index.

  For a 4096 × 1024 array x and a 1024 × 1024 weight w, `proj x w` is x · wᵀ: entry (p, c) is the sum over k of
  x(p, k) · w(c, k).  For a query row r (1024 entries), keys k and values v (4096 × 1024 each):
  the score of key j is (Σ_e r(e) · k(j, e)) scaled by 2⁻⁵ (= 1/√1024); a row of scores s is turned into weights by
  subtracting its maximum M (the fold of max from −∞), exponentiating, and dividing by the sum of the exponentials;
  the attention output at column d is Σ_j weight(j) · v(j, d).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An a × b array of extended reals. -/
abbrev Mat (a b : Nat) : Type := (⟨2, ![a, b]⟩ : Shape).Idx → EReal

/-- Entry (p, c) of x · wᵀ. -/
def projAt (x : Mat 4096 1024) (w : Mat 1024 1024) (p : Fin 4096) (c : Fin 1024) : EReal :=
  ∑ k : Fin 1024, x (ix2 p k) * w (ix2 c k)

/-- x · wᵀ as an array. -/
def proj (x : Mat 4096 1024) (w : Mat 1024 1024) : Mat 4096 1024 := fun i => projAt x w (i 0) (i 1)

theorem proj_apply (x : Mat 4096 1024) (w : Mat 1024 1024) (p : Fin 4096) (c : Fin 1024) :
    proj x w (ix2 p c) = projAt x w p c := rfl

/-- The scale 2⁻⁵ as the kernel spells it: the f32 word 0x3D000000. -/
def scale : EReal := Ideal.ofBits .f32 0x3D000000#32

/-- −∞ as both programs spell it: the f32 word 0xFF800000. -/
def negInf : EReal := Ideal.ofBits .f32 0xFF800000#32

/-- The scaled score of a query row against key j. -/
def score (r : Fin 1024 → EReal) (k : Mat 4096 1024) (j : Fin 4096) : EReal :=
  (∑ e : Fin 1024, r e * k (ix2 j e)) * scale

/-- The maximum of a row of scores: max folded from −∞. -/
def rowMax (s : Fin 4096 → EReal) : EReal := (Finset.univ : Finset (Fin 4096)).fold max negInf s

/-- The exponential of a score less the row's maximum. -/
def expo (s : Fin 4096 → EReal) (j : Fin 4096) : EReal := Ideal.exp (s j - rowMax s)

/-- The softmax weight of entry j of a row of scores. -/
def weight (s : Fin 4096 → EReal) (j : Fin 4096) : EReal := Ideal.div (expo s j) (∑ j' : Fin 4096, expo s j')

/-- The attention output of a query row at column d. -/
def attnRow (r : Fin 1024 → EReal) (k v : Mat 4096 1024) (d : Fin 1024) : EReal :=
  ∑ j : Fin 4096, weight (score r k) j * v (ix2 j d)

/-- The attention output as an array: row p is the output of query row p. -/
def attn (q k v : Mat 4096 1024) : Mat 4096 1024 := fun i => attnRow (fun e => q (ix2 (i 0) e)) k v (i 1)

theorem attn_apply (q k v : Mat 4096 1024) (p : Fin 4096) (d : Fin 1024) :
    attn q k v (ix2 p d) = attnRow (fun e => q (ix2 p e)) k v d := rfl

/-- The whole computation from the four arguments. -/
def selfAttn (x : Mat 4096 1024) (wq wk wv : Mat 1024 1024) : Mat 4096 1024 :=
  attn (proj x wq) (proj x wk) (proj x wv)

/-! ## The one arithmetic fact joining the two programs: dividing by √1024 is scaling by 2⁻⁵ -/

/-- The word 0x3D000000 denotes 1/32. -/
theorem scale_eq : scale = ((1 / 32 : ℝ) : EReal) := by
  unfold scale
  simp [Ideal.ofBits, Ideal.ieee]
  first
    | (rw [← EReal.coe_mul]; exact congrArg _ (by norm_num))
    | (norm_cast; norm_num)
    | (rw [← EReal.coe_mul]; norm_num)

/-- The word 0x44800000 denotes 1024. -/
theorem ofBits_1024 : Ideal.ofBits .f32 0x44800000#32 = ((1024 : ℝ) : EReal) := by
  simp [Ideal.ofBits, Ideal.ieee]
  first
    | (rw [← EReal.coe_mul]; exact congrArg _ (by norm_num))
    | (norm_cast; norm_num)
    | (rw [← EReal.coe_mul]; norm_num)

/-- √1024 = 32 on the extended reals. -/
theorem sqrt_1024 : Ideal.sqrt (Ideal.ofBits .f32 0x44800000#32) = ((32 : ℝ) : EReal) := by
  rw [ofBits_1024]
  show (if (1024 : ℝ) < 0 then (⊥ : EReal) else ((Real.sqrt 1024 : ℝ) : EReal)) = _
  rw [if_neg (by norm_num)]
  have h : Real.sqrt 1024 = 32 := by
    rw [show (1024 : ℝ) = 32 ^ 2 by norm_num]
    exact Real.sqrt_sq (by norm_num)
  rw [h]

/-- Dividing by √1024 is multiplying by the scale, for every extended real. -/
theorem div_sqrt_eq_scale (x : EReal) :
    Ideal.div x (Ideal.sqrt (Ideal.ofBits .f32 0x44800000#32)) = x * scale := by
  rw [sqrt_1024, scale_eq]
  exact Ideal.div_coe (by norm_num) x

/-- −∞ is the bottom of the extended reals. -/
theorem negInf_eq : negInf = ⊥ := by
  unfold negInf
  simp [Ideal.ofBits, Ideal.ieee]

/-- Taking the max with −∞ once more changes nothing. -/
theorem max_negInf (y : EReal) : max negInf y = y := by
  rw [negInf_eq]; exact max_eq_right bot_le

end Cert.Attn

end
-- ==== Proof.ProjArray.lean ====
/-
  The first region's three output arrays as whole-array functions.  Grid point t of eight works on rows
  512·t … 512·t + 511 of the inputs and of each output, with each weight matrix whole; what it writes back is that block of
  rows of x · wᵀ; the eight blocks tile the 4096 rows, so each output array ends as x · wᵀ.
-/
import proofs.«123159_j63161789055035_2_alg».proof.Proof.Gen.KernelIdeal.Frame
import proofs.«123159_j63161789055035_2_alg».proof.Proof.ProjPayload
import proofs.«123159_j63161789055035_2_alg».proof.Proof.Spec
import Idealize.ShloMosaic.Lib.Pipeline.Value
import Idealize.ShloMosaic.Lib.ValueIdx

noncomputable section

namespace Cert.KernelIdeal.ProjArray

open Cert.KernelIdeal Cert.KernelIdeal.Gen Cert.KernelIdeal.ProjPayload
open Idealize.ShloMosaic Idealize.ShloMosaic.TcCoe Idealize.SL.Sem Idealize.ShloMosaic.ValueIdx
open Idealize.ShloMosaic.Pipeline (Dat)
open Cert.Attn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the eight grid points: the inputs' window and the three outputs' windows are at block row t,
    block column 0; the weights' windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- WHAT POINT t WRITES BACK to the first projection's array is block t of x · wᵀ of the arrays the region finds. -/
theorem flushed4_eq (c : Dev nD) (t : Fin cfg0.N) :
    (dat0 V c).flushed 4 t
      = ((cfg0.win 4).blk t).view.read (Elt Ideal) (proj (V c main_arg0) (V c main_arg1)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  obtain ⟨e00, e01, e10, e11, e20, e21, e30, e31, e40, e41, e50, e51, e60, e61⟩ := idx_facts t
  funext j
  obtain ⟨p, q, rfl⟩ : ∃ (p : Fin 512) (q : Fin 1024), j = ix2 p q := ⟨j 0, j 1, eq_ix2 j⟩
  refine (pay2_apply (iblk0 V c 0 t) (iblk0 V c 1 t) p q).trans ?_
  show _ = projAt (V c main_arg0) (V c main_arg1) ((((cfg0.win 4).blk t).view.emb (ix2 p q)) 0) ((((cfg0.win 4).blk t).view.emb (ix2 p q)) 1)
  unfold projAt
  refine Finset.sum_congr rfl fun k _ => ?_
  have hx : iblk0 V c 0 t (ix2 p k)
      = V c main_arg0 (ix2 ((((cfg0.win 4).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 512 + 1 * p.val = win0_4.index t (0 : Fin 2) * 512 + 1 * p.val; omega
    | ⟨1, _⟩ => show win0_0.index t (1 : Fin 2) * 1024 + 1 * k.val = k.val; omega
  have hw : iblk0 V c 1 t (ix2 q k)
      = V c main_arg1 (ix2 ((((cfg0.win 4).blk t).view.emb (ix2 p q)) 1) k) := by
    show V c main_arg1 (((cfg0.win 1).blk t).view.emb (ix2 q k)) = _
    refine congrArg (V c main_arg1) (funext fun a => Fin.ext ?_)
    match a with
    | ⟨0, _⟩ => show win0_1.index t (0 : Fin 2) * 1024 + 1 * q.val = win0_4.index t (1 : Fin 2) * 1024 + 1 * q.val; omega
    | ⟨1, _⟩ => show win0_1.index t (1 : Fin 2) * 1024 + 1 * k.val = k.val; omega
  rw [hx, hw]

/-- An index of the array is in point t's block iff each coordinate is in the block's range on its axis. -/
theorem mem_blk4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v0_0).slice (win0_4.rect t)).set ↔ _
  rw [View.set_slice_whole, Rect.mem_set_unit]
  exact Iff.rfl

/-- Every row of the array is in the block of the point numbered by the row divided by 512. -/
theorem cover4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_4 _, ?_⟩
  rw [mem_blk4]
  obtain ⟨e00, e01, e10, e11, e20, e21, e30, e31, e40, e41, e50, e51, e60, e61⟩ := idx_facts ⟨(i 0).val / 512, by rw [hN]; omega⟩
  intro a
  match a with
  | ⟨0, _⟩ =>
    show win0_4.index _ (0 : Fin 2) * 512 ≤ (i 0).val ∧ (i 0).val < win0_4.index _ (0 : Fin 2) * 512 + 512
    rw [e40]
    show (i 0).val / 512 * 512 ≤ (i 0).val ∧ (i 0).val < (i 0).val / 512 * 512 + 512
    omega
  | ⟨1, _⟩ =>
    show win0_4.index _ (1 : Fin 2) * 1024 ≤ (i 1).val ∧ (i 1).val < win0_4.index _ (1 : Fin 2) * 1024 + 1024
    rw [e41]
    omega

/-- THE FIRST PROJECTION'S ARRAY after the region: x · wᵀ of the arrays the region finds. -/
theorem final4 (c : Dev nD) : (dat0 V c).arrAt 4 cfg0.N = proj (V c main_arg0) (V c main_arg1) :=
  (dat0 V c).arrAt_eq_of_cover 4 (proj (V c main_arg0) (V c main_arg1)) (fun t _ => flushed4_eq V c t) cover4

/-- WHAT POINT t WRITES BACK to the second projection's array is block t of x · wᵀ of the arrays the region finds. -/
theorem flushed5_eq (c : Dev nD) (t : Fin cfg0.N) :
    (dat0 V c).flushed 5 t
      = ((cfg0.win 5).blk t).view.read (Elt Ideal) (proj (V c main_arg0) (V c main_arg2)) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz]
  obtain ⟨e00, e01, e10, e11, e20, e21, e30, e31, e40, e41, e50, e51, e60, e61⟩ := idx_facts t
  funext j
  obtain ⟨p, q, rfl⟩ : ∃ (p : Fin 512) (q : Fin 1024), j = ix2 p q := ⟨j 0, j 1, eq_ix2 j⟩
  refine (pay3_apply (iblk0 V c 0 t) (iblk0 V c 2 t) p q).trans ?_
  show _ = projAt (V c main_arg0) (V c main_arg2) ((((cfg0.win 5).blk t).view.emb (ix2 p q)) 0) ((((cfg0.win 5).blk t).view.emb (ix2 p q)) 1)
  unfold projAt
  refine Finset.sum_congr rfl fun k _ => ?_
  have hx : iblk0 V c 0 t (ix2 p k)
      = V c main_arg0 (ix2 ((((cfg0.win 5).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 1024 + 1 * k.val = k.val; omega
  have hw : iblk0 V c 2 t (ix2 q k)
      = V c main_arg2 (ix2 ((((cfg0.win 5).blk t).view.emb (ix2 p q)) 1) k) := by
    show V c main_arg2 (((cfg0.win 2).blk t).view.emb (ix2 q k)) = _
    refine congrArg (V c main_arg2) (funext fun a => Fin.ext ?_)
    match a with
    | ⟨0, _⟩ => show win0_2.index t (0 : Fin 2) * 1024 + 1 * q.val = win0_5.index t (1 : Fin 2) * 1024 + 1 * q.val; omega
    | ⟨1, _⟩ => show win0_2.index t (1 : Fin 2) * 1024 + 1 * k.val = k.val; omega
  rw [hx, hw]

/-- An index of the array is in point t's block iff each coordinate is in the block's range on its axis. -/
theorem mem_blk5 (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v0_1).slice (win0_5.rect t)).set ↔ _
  rw [View.set_slice_whole, Rect.mem_set_unit]
  exact Iff.rfl

/-- Every row of the array is in the block of the point numbered by the row divided by 512. -/
theorem cover5 (i : S4096x1024.Idx) :
    ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_5 _, ?_⟩
  rw [mem_blk5]
  obtain ⟨e00, e01, e10, e11, e20, e21, e30, e31, e40, e41, e50, e51, e60, e61⟩ := idx_facts ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e50]
    show (i 0).val / 512 * 512 ≤ (i 0).val ∧ (i 0).val < (i 0).val / 512 * 512 + 512
    omega
  | ⟨1, _⟩ =>
    show win0_5.index _ (1 : Fin 2) * 1024 ≤ (i 1).val ∧ (i 1).val < win0_5.index _ (1 : Fin 2) * 1024 + 1024
    rw [e51]
    omega

/-- THE SECOND PROJECTION'S ARRAY after the region: x · wᵀ of the arrays the region finds. -/
theorem final5 (c : Dev nD) : (dat0 V c).arrAt 5 cfg0.N = proj (V c main_arg0) (V c main_arg2) :=
  (dat0 V c).arrAt_eq_of_cover 5 (proj (V c main_arg0) (V c main_arg2)) (fun t _ => flushed5_eq V c t) cover5

/-- WHAT POINT t WRITES BACK to the third projection's array is block t of x · wᵀ of the arrays the region finds. -/
theorem flushed6_eq (c : Dev nD) (t : Fin cfg0.N) :
    (dat0 V c).flushed 6 t
      = ((cfg0.win 6).blk t).view.read (Elt Ideal) (proj (V c main_arg0) (V c main_arg3)) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz]
  obtain ⟨e00, e01, e10, e11, e20, e21, e30, e31, e40, e41, e50, e51, e60, e61⟩ := idx_facts t
  funext j
  obtain ⟨p, q, rfl⟩ : ∃ (p : Fin 512) (q : Fin 1024), j = ix2 p q := ⟨j 0, j 1, eq_ix2 j⟩
  refine (pay4_apply (iblk0 V c 0 t) (iblk0 V c 3 t) p q).trans ?_
  show _ = projAt (V c main_arg0) (V c main_arg3) ((((cfg0.win 6).blk t).view.emb (ix2 p q)) 0) ((((cfg0.win 6).blk t).view.emb (ix2 p q)) 1)
  unfold projAt
  refine Finset.sum_congr rfl fun k _ => ?_
  have hx : iblk0 V c 0 t (ix2 p k)
      = V c main_arg0 (ix2 ((((cfg0.win 6).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 512 + 1 * p.val = win0_6.index t (0 : Fin 2) * 512 + 1 * p.val; omega
    | ⟨1, _⟩ => show win0_0.index t (1 : Fin 2) * 1024 + 1 * k.val = k.val; omega
  have hw : iblk0 V c 3 t (ix2 q k)
      = V c main_arg3 (ix2 ((((cfg0.win 6).blk t).view.emb (ix2 p q)) 1) k) := by
    show V c main_arg3 (((cfg0.win 3).blk t).view.emb (ix2 q k)) = _
    refine congrArg (V c main_arg3) (funext fun a => Fin.ext ?_)
    match a with
    | ⟨0, _⟩ => show win0_3.index t (0 : Fin 2) * 1024 + 1 * q.val = win0_6.index t (1 : Fin 2) * 1024 + 1 * q.val; omega
    | ⟨1, _⟩ => show win0_3.index t (1 : Fin 2) * 1024 + 1 * k.val = k.val; omega
  rw [hx, hw]

/-- An index of the array is in point t's block iff each coordinate is in the block's range on its axis. -/
theorem mem_blk6 (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v0_2).slice (win0_6.rect t)).set ↔ _
  rw [View.set_slice_whole, Rect.mem_set_unit]
  exact Iff.rfl

/-- Every row of the array is in the block of the point numbered by the row divided by 512. -/
theorem cover6 (i : S4096x1024.Idx) :
    ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 8 := N_0
  refine ⟨⟨(i 0).val / 512, by rw [hN]; omega⟩, flush0_6 _, ?_⟩
  rw [mem_blk6]
  obtain ⟨e00, e01, e10, e11, e20, e21, e30, e31, e40, e41, e50, e51, e60, e61⟩ := idx_facts ⟨(i 0).val / 512, by rw [hN]; omega⟩
  intro a
  match a with
  | ⟨0, _⟩ =>
    show win0_6.index _ (0 : Fin 2) * 512 ≤ (i 0).val ∧ (i 0).val < win0_6.index _ (0 : Fin 2) * 512 + 512
    rw [e60]
    show (i 0).val / 512 * 512 ≤ (i 0).val ∧ (i 0).val < (i 0).val / 512 * 512 + 512
    omega
  | ⟨1, _⟩ =>
    show win0_6.index _ (1 : Fin 2) * 1024 ≤ (i 1).val ∧ (i 1).val < win0_6.index _ (1 : Fin 2) * 1024 + 1024
    rw [e61]
    omega

/-- THE THIRD PROJECTION'S ARRAY after the region: x · wᵀ of the arrays the region finds. -/
theorem final6 (c : Dev nD) : (dat0 V c).arrAt 6 cfg0.N = proj (V c main_arg0) (V c main_arg3) :=
  (dat0 V c).arrAt_eq_of_cover 6 (proj (V c main_arg0) (V c main_arg3)) (fun t _ => flushed6_eq V c t) cover6

end Cert.KernelIdeal.ProjArray

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.LibRowReduce.lean ====
/- Row reductions of a two-axis array kept as a column and repeated along the rows, read at an index over the extended reals:
   the lane sum of row p is the plain sum over the row, the lane maximum the fold of max over the row from the initial word; a
   length-a vector cast to an a × 1 column and broadcast to a × b reads, at (p, q), the vector's entry p; a 1 × 1 array broadcast
   to a × b reads its one entry everywhere. Names no program. -/
import proofs.«123159_j63161789055035_2_alg».proof.Proof.LibColumn
import Idealize.ShloMosaic.PureOps.Ideal
import Idealize.ShloMosaic.PureOps.Ideal.Laws
import Idealize.ShloMosaic.Lib.Pipeline.Value
import Idealize.ShloMosaic.Lib.ValueIdx
import Idealize.ShloMosaic.Lib.ValueLayout

noncomputable section

namespace Cert.LibRowReduce

open Idealize.ShloMosaic Idealize.ShloMosaic.ValueIdx

variable {a b : ℕ}

/-- Result index p of a reduction along the second axis, with the dropped coordinate k put back, is (p, k). -/
theorem lift_row (h : (⟨2, ![a, b]⟩ : Shape).Reduces [(1 : Fin 2)] ⟨1, ![a]⟩) (p : Fin a) (k : Fin b) :
    h.lift (ix1 p) k = ix2 p k := by
  funext c
  apply Fin.ext
  match c with
  | ⟨0, _⟩ => rfl
  | ⟨1, _⟩ => rfl

/-- The lane sum of row p. -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The lane maximum of row p: max folded over the row from the initial word. -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits (F := Ideal) φ acc) (fun k => src (ix2 p k)) :=
  (Ideal.multiReduction_maximumf_single src acc h hφ hacc (ix1 p)).trans
    (congrArg (fun f => (Finset.univ : Finset (Fin b)).fold max (FloatOps.ofBits (F := Ideal) φ acc) f)
      (funext fun k => congrArg src (lift_row h p k)))

variable {α : Type}

/-- A vector kept as a column and repeated along the rows reads, at (p, q), its entry p. -/
theorem column_repeat_apply {b' : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b']⟩) (p : Fin a) (q : Fin b') :
    broadcastTo ⟨2, ![a, b']⟩ (shapeCast ⟨2, ![a, 1]⟩ v hc) hb (ix2 p q) = v (ix1 p) :=
  (Cert.LibColumn.broadcastTo_a1_ab_apply _ hb p q).trans (Cert.LibColumn.shapeCast_a_a1_apply v hc p 0)

/-- A 1 × 1 array repeated over a × b reads its one entry everywhere. -/
theorem broadcastTo_11_ab_apply (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

end Cert.LibRowReduce

end
-- ==== Proof.AttnPayload.lean ====
/-
  The second region's body at an index.  From a 256 × 1024 block of queries and the whole 4096 × 1024 keys and
  values, the stored block holds at (p, d) the attention output of query row p at column d: the scores of row p against
  every key (the product with the keys' transpose, scaled by 2⁻⁵), their maximum, the exponentials of the differences,
  those divided by their sum, and the weighted sum of the values' column d.
-/
import proofs.«123159_j63161789055035_2_alg».proof.Proof.Gen.KernelIdeal.Skeleton
import proofs.«123159_j63161789055035_2_alg».proof.Proof.LibDotT
import proofs.«123159_j63161789055035_2_alg».proof.Proof.LibPlainDot
import proofs.«123159_j63161789055035_2_alg».proof.Proof.LibRowReduce
import proofs.«123159_j63161789055035_2_alg».proof.Proof.Spec
import Idealize.ShloMosaic.Lib.ValueIdx
import Idealize.ShloMosaic.Lib.Pipeline.Value

noncomputable section

namespace Cert.KernelIdeal.AttnPayload

open Cert.KernelIdeal Cert.KernelIdeal.Gen Idealize.ShloMosaic Idealize.ShloMosaic.ValueIdx
open Cert.Attn

/-- The block of scaled scores: queries times the keys' transpose, times 2⁻⁵. -/
def scores (q : FVec Ideal S256x1024 .bf16) (k : FVec Ideal S4096x1024 .bf16) : FVec Ideal S256x4096 .f32 :=
  mulf (matmul dot_S256x1024_S4096x1024_S256x4096_1_1_0_0_n_n none q k (constant S256x4096 .f32 0x00000000#32))
    (broadcast S256x4096 (Scalar.ofBits (F := Ideal) .f32 0x3D000000#32))

/-- Row p of the scores block is the scores of query row p. -/
theorem scores_apply (q : FVec Ideal S256x1024 .bf16) (k : FVec Ideal S4096x1024 .bf16) (p : Fin 256) (j : Fin 4096) :
    scores q k (ix2 p j) = score (fun e => q (ix2 p e)) k j := by
  have h : FloatOps.matmul dot_S256x1024_S4096x1024_S256x4096_1_1_0_0_n_n none q k (constant S256x4096 .f32 0x00000000#32) (ix2 p j)
      = ∑ e : Fin 1024, q (ix2 p e) * k (ix2 j e) :=
    Cert.LibDotT.matmulT_zero_apply (R := 256) (K := 1024) (C := 4096)
      Facts₀.dot_S256x1024_S4096x1024_S256x4096_1_1_0_0_n_n_wf none q k p j
  show FloatOps.matmul dot_S256x1024_S4096x1024_S256x4096_1_1_0_0_n_n none q k (constant S256x4096 .f32 0x00000000#32) (ix2 p j)
      * Ideal.ofBits .f32 0x3D000000#32 = _
  rw [h]
  rfl

/-- The maximum of each row of a scores block. -/
def rowMaxV (s : FVec Ideal S256x4096 .f32) : FVec Ideal S256 .f32 :=
  multiReduction .maximumf [1] S256 s 0xFF800000#32 Facts₀.reduces_S256x4096_S256 (.inl rfl) rfl

theorem rowMaxV_apply (s : FVec Ideal S256x4096 .f32) (p : Fin 256) :
    rowMaxV s (ix1 p) = rowMax (fun j => s (ix2 p j)) :=
  Cert.LibRowReduce.rowMax_apply (a := 256) (b := 4096) s 0xFF800000#32 Facts₀.reduces_S256x4096_S256 (.inl rfl) rfl p

/-- The exponentials of the scores less their row's maximum. -/
def expV (s : FVec Ideal S256x4096 .f32) : FVec Ideal S256x4096 .f32 :=
  exp (subf s (broadcastTo S256x4096 (shapeCast S256x1 (rowMaxV s) Facts₀.shapeCasts_S256_S256x1) Facts₀.broadcasts_S256x1_S256x4096))

theorem expV_apply (s : FVec Ideal S256x4096 .f32) (p : Fin 256) (j : Fin 4096) :
    expV s (ix2 p j) = expo (fun j => s (ix2 p j)) j := by
  have hM : broadcastTo S256x4096 (shapeCast S256x1 (rowMaxV s) Facts₀.shapeCasts_S256_S256x1) Facts₀.broadcasts_S256x1_S256x4096 (ix2 p j)
      = rowMax (fun j => s (ix2 p j)) :=
    (Cert.LibRowReduce.column_repeat_apply (a := 256) (b' := 4096) (rowMaxV s) Facts₀.shapeCasts_S256_S256x1
      Facts₀.broadcasts_S256x1_S256x4096 p j).trans (rowMaxV_apply s p)
  show Ideal.exp (s (ix2 p j)
      - broadcastTo S256x4096 (shapeCast S256x1 (rowMaxV s) Facts₀.shapeCasts_S256_S256x1) Facts₀.broadcasts_S256x1_S256x4096 (ix2 p j)) = _
  rw [hM]
  rfl

/-- The sum of each row of exponentials. -/
def rowSumV (e : FVec Ideal S256x4096 .f32) : FVec Ideal S256 .f32 :=
  multiReduction .add [1] S256 e 0x00000000#32 Facts₀.reduces_S256x4096_S256 (.inl rfl) rfl

theorem rowSumV_apply (e : FVec Ideal S256x4096 .f32) (p : Fin 256) :
    rowSumV e (ix1 p) = ∑ j : Fin 4096, e (ix2 p j) :=
  Cert.LibRowReduce.rowSum_apply (a := 256) (b := 4096) e 0x00000000#32 Facts₀.reduces_S256x4096_S256 (.inl rfl) rfl p

/-- The softmax weights of a scores block. -/
def weightV (s : FVec Ideal S256x4096 .f32) : FVec Ideal S256x4096 .f32 :=
  divf (expV s) (broadcastTo S256x4096 (shapeCast S256x1 (rowSumV (expV s)) Facts₀.shapeCasts_S256_S256x1) Facts₀.broadcasts_S256x1_S256x4096)

theorem weightV_apply (s : FVec Ideal S256x4096 .f32) (p : Fin 256) (j : Fin 4096) :
    weightV s (ix2 p j) = weight (fun j => s (ix2 p j)) j := by
  have hL : broadcastTo S256x4096 (shapeCast S256x1 (rowSumV (expV s)) Facts₀.shapeCasts_S256_S256x1) Facts₀.broadcasts_S256x1_S256x4096 (ix2 p j)
      = ∑ j' : Fin 4096, expo (fun j => s (ix2 p j)) j' :=
    ((Cert.LibRowReduce.column_repeat_apply (a := 256) (b' := 4096) (rowSumV (expV s)) Facts₀.shapeCasts_S256_S256x1
      Facts₀.broadcasts_S256x1_S256x4096 p j).trans (rowSumV_apply (expV s) p)).trans
      (Finset.sum_congr rfl fun j' _ => expV_apply s p j')
  show Ideal.div (expV s (ix2 p j))
      (broadcastTo S256x4096 (shapeCast S256x1 (rowSumV (expV s)) Facts₀.shapeCasts_S256_S256x1) Facts₀.broadcasts_S256x1_S256x4096 (ix2 p j)) = _
  rw [hL, expV_apply]
  rfl

/-- The body's stored block is the weights (narrowed, the identity here) times the values. -/
theorem pay1_eq (x0 : FVec Ideal S256x1024 .bf16) (x1 x2 : FVec Ideal S4096x1024 .bf16) :
    k1_pay1 (F := Ideal) x0 x1 x2
      = matmul dot_S256x4096_S4096x1024_S256x1024_1_0_0_1_n_n none
          (truncf .bf16 (weightV (scores (shapeCast S256x1024 x0 Facts₀.shapeCasts_S256x1024_S256x1024)
            (shapeCast S4096x1024 x1 Facts₀.shapeCasts_S4096x1024_S4096x1024))) bitsLt_bf16_f32)
          (shapeCast S4096x1024 x2 Facts₀.shapeCasts_S4096x1024_S4096x1024)
          (constant S256x1024 .f32 0x00000000#32) := rfl

/-- THE STORED BLOCK AT (p, d): the attention output of query row p at column d. -/
theorem pay1_apply (x0 : FVec Ideal S256x1024 .bf16) (x1 x2 : FVec Ideal S4096x1024 .bf16) (p : Fin 256) (d : Fin 1024) :
    k1_pay1 (F := Ideal) x0 x1 x2 (ix2 p d) = attnRow (fun e => x0 (ix2 p e)) x1 x2 d := by
  rw [pay1_eq, shapeCast_self, shapeCast_self, shapeCast_self]
  refine (Cert.LibPlainDot.matmul_zero_apply (R := 256) (K := 4096) (C := 1024)
    Facts₀.dot_S256x4096_S4096x1024_S256x1024_1_0_0_1_n_n_wf none
    (truncf .bf16 (weightV (scores x0 x1)) bitsLt_bf16_f32) x2 p d).trans ?_
  unfold attnRow
  refine Finset.sum_congr rfl fun j _ => ?_
  show weightV (scores x0 x1) (ix2 p j) * x2 (ix2 j d) = _
  rw [weightV_apply]
  have hs : (fun j => scores x0 x1 (ix2 p j)) = score (fun e => x0 (ix2 p e)) x1 := funext fun j => scores_apply x0 x1 p j
  rw [hs]

end Cert.KernelIdeal.AttnPayload

end
-- ==== Proof.AttnArray.lean ====
/-
  The second region's output array as a whole-array function.  Grid point t of sixteen works on rows
  256·t … 256·t + 255 of the queries and of the output, with the keys and the values whole; what it writes back is that
  block of rows of the attention output; the sixteen blocks tile the 4096 rows, so the output array ends as the attention
  output of the three arrays the region finds.
-/
import proofs.«123159_j63161789055035_2_alg».proof.Proof.Gen.KernelIdeal.Frame
import proofs.«123159_j63161789055035_2_alg».proof.Proof.AttnPayload
import proofs.«123159_j63161789055035_2_alg».proof.Proof.Spec
import Idealize.ShloMosaic.Lib.Pipeline.Value
import Idealize.ShloMosaic.Lib.ValueIdx

noncomputable section

namespace Cert.KernelIdeal.AttnArray

open Cert.KernelIdeal Cert.KernelIdeal.Gen Cert.KernelIdeal.AttnPayload
open Idealize.ShloMosaic Idealize.ShloMosaic.TcCoe Idealize.SL.Sem Idealize.ShloMosaic.ValueIdx
open Idealize.ShloMosaic.Pipeline (Dat)
open Cert.Attn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the sixteen grid points: the queries' window and the output's window are at block row t,
    block column 0; the keys' and the values' windows stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The keys' window holds the whole array at every point. -/
theorem keys_block (c : Dev nD) (t : Fin cfg1.N) : iblk1 V c 1 t = V c main_v0_1 := by
  obtain ⟨e00, e01, e10, e11, e20, e21, e30, e31⟩ := idx_facts t
  funext y
  show V c main_v0_1 (((cfg1.win 1).blk t).view.emb y) = V c main_v0_1 y
  refine congrArg (V c main_v0_1) (funext fun a => Fin.ext ?_)
  match a with
  | ⟨0, _⟩ => show win1_1.index t (0 : Fin 2) * 4096 + 1 * (y 0).val = (y 0).val; omega
  | ⟨1, _⟩ => show win1_1.index t (1 : Fin 2) * 1024 + 1 * (y 1).val = (y 1).val; omega

/-- The values' window holds the whole array at every point. -/
theorem values_block (c : Dev nD) (t : Fin cfg1.N) : iblk1 V c 2 t = V c main_v0_2 := by
  obtain ⟨e00, e01, e10, e11, e20, e21, e30, e31⟩ := idx_facts t
  funext y
  show V c main_v0_2 (((cfg1.win 2).blk t).view.emb y) = V c main_v0_2 y
  refine congrArg (V c main_v0_2) (funext fun a => Fin.ext ?_)
  match a with
  | ⟨0, _⟩ => show win1_2.index t (0 : Fin 2) * 4096 + 1 * (y 0).val = (y 0).val; omega
  | ⟨1, _⟩ => show win1_2.index t (1 : Fin 2) * 1024 + 1 * (y 1).val = (y 1).val; omega

/-- WHAT POINT t WRITES BACK is block t of the attention output of the arrays the region finds. -/
theorem flushed3_eq (c : Dev nD) (t : Fin cfg1.N) :
    (dat1 V c).flushed 3 t
      = ((cfg1.win 3).blk t).view.read (Elt Ideal) (attn (V c main_v0_0) (V c main_v0_1) (V c main_v0_2)) := by
  show (cfg1.win 3).cut (grid1.coords t) ((dat1 V c).after 3 t) = _
  rw [after1_3]
  unfold out1_3
  rw [View.canon_unit_zero hz]
  simp only [View.ld_unit_zero (S := S256x1024) hz, View.ld_unit_zero (S := S4096x1024) hz]
  obtain ⟨e00, e01, e10, e11, e20, e21, e30, e31⟩ := idx_facts t
  funext j
  obtain ⟨p, d, rfl⟩ : ∃ (p : Fin 256) (d : Fin 1024), j = ix2 p d := ⟨j 0, j 1, eq_ix2 j⟩
  refine (pay1_apply (iblk1 V c 0 t) (iblk1 V c 1 t) (iblk1 V c 2 t) p d).trans ?_
  rw [keys_block V c t, values_block V c t]
  have hq : (fun e : Fin 1024 => iblk1 V c 0 t (ix2 p e))
      = fun e : Fin 1024 => V c main_v0_0 (ix2 ((((cfg1.win 3).blk t).view.emb (ix2 p d)) 0) e) := funext fun e => by
    show V c main_v0_0 (((cfg1.win 0).blk t).view.emb (ix2 p e)) = _
    refine congrArg (V c main_v0_0) (funext fun a => Fin.ext ?_)
    match a with
    | ⟨0, _⟩ => show win1_0.index t (0 : Fin 2) * 256 + 1 * p.val = win1_3.index t (0 : Fin 2) * 256 + 1 * p.val; omega
    | ⟨1, _⟩ => show win1_0.index t (1 : Fin 2) * 1024 + 1 * e.val = e.val; omega
  have hd : d = (((cfg1.win 3).blk t).view.emb (ix2 p d)) 1 := Fin.ext (by
    show d.val = win1_3.index t (1 : Fin 2) * 1024 + 1 * d.val
    omega)
  show _ = attnRow (fun e : Fin 1024 => V c main_v0_0 (ix2 ((((cfg1.win 3).blk t).view.emb (ix2 p d)) 0) e)) (V c main_v0_1) (V c main_v0_2) ((((cfg1.win 3).blk t).view.emb (ix2 p d)) 1)
  rw [hq, ← hd]

/-- An index of the array is in point t's block iff each coordinate is in the block's range on its axis. -/
theorem mem_blk3 (t : Fin cfg1.N) (i : S4096x1024.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v1).slice (win1_3.rect t)).set ↔ _
  rw [View.set_slice_whole, Rect.mem_set_unit]
  exact Iff.rfl

/-- Every row of the array is in the block of the point numbered by the row divided by 256. -/
theorem cover3 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 16 := N_1
  refine ⟨⟨(i 0).val / 256, by rw [hN]; omega⟩, flush1_3 _, ?_⟩
  rw [mem_blk3]
  obtain ⟨e00, e01, e10, e11, e20, e21, e30, e31⟩ := idx_facts ⟨(i 0).val / 256, by rw [hN]; omega⟩
  intro a
  match a with
  | ⟨0, _⟩ =>
    show win1_3.index _ (0 : Fin 2) * 256 ≤ (i 0).val ∧ (i 0).val < win1_3.index _ (0 : Fin 2) * 256 + 256
    rw [e30]
    show (i 0).val / 256 * 256 ≤ (i 0).val ∧ (i 0).val < (i 0).val / 256 * 256 + 256
    omega
  | ⟨1, _⟩ =>
    show win1_3.index _ (1 : Fin 2) * 1024 ≤ (i 1).val ∧ (i 1).val < win1_3.index _ (1 : Fin 2) * 1024 + 1024
    rw [e31]
    omega

/-- THE OUTPUT ARRAY after the region: the attention output of the arrays the region finds. -/
theorem final3 (c : Dev nD) :
    (dat1 V c).arrAt 3 cfg1.N = attn (V c main_v0_0) (V c main_v0_1) (V c main_v0_2) :=
  (dat1 V c).arrAt_eq_of_cover 3 (attn (V c main_v0_0) (V c main_v0_1) (V c main_v0_2)) (fun t _ => flushed3_eq V c t) cover3

end Cert.KernelIdeal.AttnArray

end
-- ==== Proof.KernelValue.lean ====
/-
  The kernel program's result as one function of its arguments: the second region's output array is the attention
  output of what the first region left, and what the first region left is the three projections of the arguments.
-/
import proofs.«123159_j63161789055035_2_alg».proof.Proof.KernelRun
import proofs.«123159_j63161789055035_2_alg».proof.Proof.ProjArray
import proofs.«123159_j63161789055035_2_alg».proof.Proof.AttnArray
import proofs.«123159_j63161789055035_2_alg».proof.Proof.Spec

noncomputable section

namespace Cert.KernelIdeal.Out

open Cert.KernelIdeal Cert.KernelIdeal.Gen
open Idealize.ShloMosaic Idealize.ShloMosaic.TcCoe Idealize.SL.Sem
open Cert.Attn

variable (m : (ℓ : Loc nD τ sig) → Buf (Elt Ideal) ℓ) (ρ : Dev nD → PrngReg)

/-- The result buffer at the last boundary is the attention of the three projections of the launch arguments. -/
theorem result_eq (c : Dev nD) :
    W2 m ρ c (Proc.devRef .tc main_v1)
      = selfAttn (m ((c.tc : Thread nD τ).loc main_arg0)) (m ((c.tc : Thread nD τ).loc main_arg1)) (m ((c.tc : Thread nD τ).loc main_arg2)) (m ((c.tc : Thread nD τ).loc main_arg3)) := by
  have h0 : V0 m ρ c main_arg0 = m ((c.tc : Thread nD τ).loc main_arg0) := rfl
  have h1 : V0 m ρ c main_arg1 = m ((c.tc : Thread nD τ).loc main_arg1) := rfl
  have h2 : V0 m ρ c main_arg2 = m ((c.tc : Thread nD τ).loc main_arg2) := rfl
  have h3 : V0 m ρ c main_arg3 = m ((c.tc : Thread nD τ).loc main_arg3) := rfl
  rw [result_arr, Cert.KernelIdeal.AttnArray.final3 (V1 m ρ) c, q_arr, k_arr, v_arr,
    Cert.KernelIdeal.ProjArray.final4 (V0 m ρ) c, Cert.KernelIdeal.ProjArray.final5 (V0 m ρ) c,
    Cert.KernelIdeal.ProjArray.final6 (V0 m ρ) c, h0, h1, h2, h3]
  rfl

/-- Every weakly fair execution of the kernel program terminates, nothing faulting, with the result at the attention of
    the arguments' projections and the arguments unchanged. -/
theorem run_value : θ_run defs (onTc (τ := τ) (main (F := Ideal))) ⟨m, fun _ => 0, ρ⟩ (fun r => ∀ c : Dev nD,
      r.2.mem ((c.tc : Thread nD τ).loc main_v1)
        = selfAttn (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (result_eq m ρ c), (h c).2⟩) (run_boundary m ρ)

end Cert.KernelIdeal.Out

end
-- ==== Proof.RefValue.lean ====
/-
  The reference, stage by stage, is the same attention: three projections against transposed weights; the scores as the
  queries times the transposed keys divided by √1024 — which is the scaling by 2⁻⁵ on every extended real —; the row
  maximum by a max-reduce from −∞ (and one more max with −∞, which changes nothing); the exponentials, their row sums
  from 0, the quotient; and the product with the values.
-/
import proofs.«123159_j63161789055035_2_alg».proof.Proof.Gen.ReferenceIdeal.Read
import proofs.«123159_j63161789055035_2_alg».proof.Proof.Spec
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx
open Cert.Attn

/-- Stage 1 is the projection x · wᵀ: the reference multiplies by the transposed weight, which reads w(c, k). -/
theorem v1_eq (x : (⟨S4096x1024, .f32⟩ : BufTy).Contents (Elt Ideal)) (w : (⟨S1024x1024, .f32⟩ : BufTy).Contents (Elt Ideal)) : val_main_v1 (F := Ideal) x w = proj x w := by
  funext i
  obtain ⟨p, c, rfl⟩ : ∃ (p : Fin 4096) (c : Fin 1024), i = ix2 p c := ⟨i 0, i 1, eq_ix2 i⟩
  rw [val_main_v1_apply, proj_apply]
  unfold projAt
  refine Finset.sum_congr rfl fun k _ => ?_
  rw [val_main_v0_apply]
  have hl : lidx_main_v1 (ix2 p c) k = ix2 p k := funext fun a => Fin.ext (by match a with | ⟨0, _⟩ => rfl | ⟨1, _⟩ => rfl)
  have hr : idx_main_v0 (ridx_main_v1 (ix2 p c) k) = ix2 c k := funext fun a => Fin.ext (by match a with | ⟨0, _⟩ => rfl | ⟨1, _⟩ => rfl)
  rw [hl, hr]

/-- Stage 3 is the projection x · wᵀ: the reference multiplies by the transposed weight, which reads w(c, k). -/
theorem v3_eq (x : (⟨S4096x1024, .f32⟩ : BufTy).Contents (Elt Ideal)) (w : (⟨S1024x1024, .f32⟩ : BufTy).Contents (Elt Ideal)) : val_main_v3 (F := Ideal) x w = proj x w := by
  funext i
  obtain ⟨p, c, rfl⟩ : ∃ (p : Fin 4096) (c : Fin 1024), i = ix2 p c := ⟨i 0, i 1, eq_ix2 i⟩
  rw [val_main_v3_apply, proj_apply]
  unfold projAt
  refine Finset.sum_congr rfl fun k _ => ?_
  rw [val_main_v2_apply]
  have hl : lidx_main_v3 (ix2 p c) k = ix2 p k := funext fun a => Fin.ext (by match a with | ⟨0, _⟩ => rfl | ⟨1, _⟩ => rfl)
  have hr : idx_main_v2 (ridx_main_v3 (ix2 p c) k) = ix2 c k := funext fun a => Fin.ext (by match a with | ⟨0, _⟩ => rfl | ⟨1, _⟩ => rfl)
  rw [hl, hr]

/-- Stage 5 is the projection x · wᵀ: the reference multiplies by the transposed weight, which reads w(c, k). -/
theorem v5_eq (x : (⟨S4096x1024, .f32⟩ : BufTy).Contents (Elt Ideal)) (w : (⟨S1024x1024, .f32⟩ : BufTy).Contents (Elt Ideal)) : val_main_v5 (F := Ideal) x w = proj x w := by
  funext i
  obtain ⟨p, c, rfl⟩ : ∃ (p : Fin 4096) (c : Fin 1024), i = ix2 p c := ⟨i 0, i 1, eq_ix2 i⟩
  rw [val_main_v5_apply, proj_apply]
  unfold projAt
  refine Finset.sum_congr rfl fun k _ => ?_
  rw [val_main_v4_apply]
  have hl : lidx_main_v5 (ix2 p c) k = ix2 p k := funext fun a => Fin.ext (by match a with | ⟨0, _⟩ => rfl | ⟨1, _⟩ => rfl)
  have hr : idx_main_v4 (ridx_main_v5 (ix2 p c) k) = ix2 c k := funext fun a => Fin.ext (by match a with | ⟨0, _⟩ => rfl | ⟨1, _⟩ => rfl)
  rw [hl, hr]

/-- The reference's scaled scores: row p against key j. -/
theorem v10_at (x : (⟨S4096x1024, .f32⟩ : BufTy).Contents (Elt Ideal)) (wq wk : (⟨S1024x1024, .f32⟩ : BufTy).Contents (Elt Ideal)) (p j : Fin 4096) :
    val_main_v10 (F := Ideal) x wq wk (ix2 p j) = score (fun e => proj x wq (ix2 p e)) (proj x wk) j := by
  rw [val_main_v10_apply, val_main_v7_apply, val_main_v9_apply, val_main_v8_apply, val_main_cst_apply]
  show Ideal.div _ (Ideal.sqrt (Ideal.ofBits .f32 0x44800000#32)) = _
  rw [div_sqrt_eq_scale]
  unfold score
  refine congrArg (· * scale) (Finset.sum_congr rfl fun e _ => ?_)
  rw [val_main_v6_apply, v1_eq, v3_eq]
  have hl : lidx_main_v7 (ix2 p j) e = ix2 p e := funext fun a => Fin.ext (by match a with | ⟨0, _⟩ => rfl | ⟨1, _⟩ => rfl)
  have hr : idx_main_v6 (ridx_main_v7 (ix2 p j) e) = ix2 j e := funext fun a => Fin.ext (by match a with | ⟨0, _⟩ => rfl | ⟨1, _⟩ => rfl)
  rw [hl, hr]

/-- Result index p of a reduction along the second axis, with the dropped coordinate j put back, is (p, j). -/
theorem lift_row (h : S4096x4096.Reduces [(1 : Fin 2)] S4096) (p : Fin 4096) (j : Fin 4096) :
    h.lift (ix1 p) j = ix2 p j := by
  funext c
  apply Fin.ext
  match c with
  | ⟨0, _⟩ => rfl
  | ⟨1, _⟩ => rfl

/-- The reference's row maximum is the fold of max from −∞ over the row's scores. -/
theorem v13_at (x : (⟨S4096x1024, .f32⟩ : BufTy).Contents (Elt Ideal)) (wq wk : (⟨S1024x1024, .f32⟩ : BufTy).Contents (Elt Ideal)) (p : Fin 4096) :
    val_main_v13 (F := Ideal) x wq wk (ix1 p) = rowMax (fun j => val_main_v10 (F := Ideal) x wq wk (ix2 p j)) := by
  have hred : S4096x4096.Reduces [(1 : Fin 2)] S4096 := by decide
  have hfold := Host.reduce_eq_fold_single (α := Ideal .f32) (FloatOps.maximumf (F := Ideal) (φ := .f32))
    (val_main_v10 (F := Ideal) x wq wk) (val_main_cst_0 (F := Ideal)) Facts₀.reducesTo_S4096x4096_S4096_d1 hred Facts₀.h_S_ (ix1 p)
  rw [val_main_v13_apply, val_main_v12_apply, val_main_cst_1_apply]
  refine Eq.trans (congrArg (fun y => FloatOps.maximumf (F := Ideal) (φ := .f32) (FloatOps.ofBits .f32 0xFF800000#32) y) hfold) ?_
  show max negInf ((Finset.univ : Finset (Fin 4096)).fold max negInf
    (val_main_v10 (F := Ideal) x wq wk ∘ hred.lift (ix1 p))) = _
  rw [max_negInf]
  unfold rowMax
  exact congrArg (fun f => (Finset.univ : Finset (Fin 4096)).fold max negInf f)
    (funext fun j => congrArg (val_main_v10 (F := Ideal) x wq wk) (lift_row hred p j))

/-- The reference's exponentials. -/
theorem v17_at (x : (⟨S4096x1024, .f32⟩ : BufTy).Contents (Elt Ideal)) (wq wk : (⟨S1024x1024, .f32⟩ : BufTy).Contents (Elt Ideal)) (p j : Fin 4096) :
    val_main_v17 (F := Ideal) x wq wk (ix2 p j)
      = expo (fun j => val_main_v10 (F := Ideal) x wq wk (ix2 p j)) j := by
  rw [val_main_v17_apply, val_main_v16_apply, val_main_v15_apply, val_main_v14_apply]
  have hi : idx_main_v14 (idx_main_v15 (ix2 p j)) = ix1 p := funext fun a => Fin.ext (by match a with | ⟨0, _⟩ => rfl)
  rw [hi, v13_at]
  rfl

/-- The reference's softmax weights. -/
theorem v21_at (x : (⟨S4096x1024, .f32⟩ : BufTy).Contents (Elt Ideal)) (wq wk : (⟨S1024x1024, .f32⟩ : BufTy).Contents (Elt Ideal)) (p j : Fin 4096) :
    val_main_v21 (F := Ideal) x wq wk (ix2 p j)
      = weight (fun j => val_main_v10 (F := Ideal) x wq wk (ix2 p j)) j := by
  rw [val_main_v21_apply, val_main_v20_apply, val_main_v19_apply, val_main_v18_apply, val_main_cst_2_apply]
  have hi : idx_main_v19 (idx_main_v20 (ix2 p j)) = ix1 p := funext fun a => Fin.ext (by match a with | ⟨0, _⟩ => rfl)
  rw [hi, v17_at]
  have hs : (∑ k : Fin 4096, val_main_v17 (F := Ideal) x wq wk (idx_main_v18 (ix1 p) k))
      = ∑ j' : Fin 4096, expo (fun j => val_main_v10 (F := Ideal) x wq wk (ix2 p j)) j' :=
    Finset.sum_congr rfl fun k _ => by
      have hk : idx_main_v18 (ix1 p) k = ix2 p k := funext fun a => Fin.ext (by match a with | ⟨0, _⟩ => rfl | ⟨1, _⟩ => rfl)
      rw [hk, v17_at]
  rw [hs]
  show Ideal.div _ (Ideal.ofBits .f32 0x00000000#32 + _) = _
  rw [Ideal.ofBits_zero_f32, zero_add]
  rfl

/-- THE REFERENCE'S RESULT is the attention of the three projections. -/
theorem v22_eq (x : (⟨S4096x1024, .f32⟩ : BufTy).Contents (Elt Ideal)) (wq wk wv : (⟨S1024x1024, .f32⟩ : BufTy).Contents (Elt Ideal)) :
    val_main_v22 (F := Ideal) x wq wk wv = selfAttn x wq wk wv := by
  funext i
  obtain ⟨p, d, rfl⟩ : ∃ (p : Fin 4096) (d : Fin 1024), i = ix2 p d := ⟨i 0, i 1, eq_ix2 i⟩
  rw [val_main_v22_apply]
  unfold selfAttn
  rw [attn_apply]
  unfold attnRow
  refine Finset.sum_congr rfl fun j _ => ?_
  have hl : lidx_main_v22 (ix2 p d) j = ix2 p j := funext fun a => Fin.ext (by match a with | ⟨0, _⟩ => rfl | ⟨1, _⟩ => rfl)
  have hr : ridx_main_v22 (ix2 p d) j = ix2 j d := funext fun a => Fin.ext (by match a with | ⟨0, _⟩ => rfl | ⟨1, _⟩ => rfl)
  rw [hl, hr, v21_at, v5_eq]
  have hs : (fun j => val_main_v10 (F := Ideal) x wq wk (ix2 p j)) = score (fun e => proj x wq (ix2 p e)) (proj x wk) :=
    funext fun j => v10_at x wq wk p j
  rw [hs]

end Cert.ReferenceIdeal.RefValue

end
-- ==== Proof.lean ====
/-
  Self-attention on a 4096 × 1024 input with 1024 × 1024 weights: q = x·W_Qᵀ, k = x·W_Kᵀ, v = x·W_Vᵀ, and
  the output softmax(q·kᵀ / √1024) · v, the softmax taken along each row.

  The kernel program computes it in two pipelined passes.  The first pass, over eight blocks of 512 rows, writes the three
  projections (rounded to bf16 on the way in and out, which is the identity on the extended reals).  The second pass, over
  sixteen blocks of 256 query rows with the keys and values whole, forms each row's scores q·kᵀ scaled by 2⁻⁵, subtracts
  the row's maximum, exponentiates, divides by the row's sum, and multiplies by v.  The reference does the same with
  whole-array operations, dividing by √1024 where the kernel multiplies by 2⁻⁵ = 1/32: on every extended real
  x / 32 = x · (1/32), so the two results are one function of the arguments, index by index, and no finiteness of the
  inputs is needed for that.  Tilings differ, but every sum is over the same index set on both sides.

  The pieces: the attention function and the law x / √1024 = x · 2⁻⁵ (Proof/Spec.lean); each pass's body at an index
  (Proof/ProjPayload.lean, Proof/AttnPayload.lean); each pass's output array from its blocks (Proof/ProjArray.lean,
  Proof/AttnArray.lean); the kernel program's run with its result named, and that result as the attention function of
  the arguments (Proof/KernelRun.lean, Proof/KernelValue.lean); the reference stage by stage (Proof/RefValue.lean).
-/
import proofs.«123159_j63161789055035_2_alg».proof.Defs
import proofs.«123159_j63161789055035_2_alg».proof.Proof.Gen.Kernel
import proofs.«123159_j63161789055035_2_alg».proof.Proof.Gen.Kernel.Frame
import proofs.«123159_j63161789055035_2_alg».proof.Proof.Gen.KernelIdeal
import proofs.«123159_j63161789055035_2_alg».proof.Proof.Gen.KernelIdeal.Frame
import proofs.«123159_j63161789055035_2_alg».proof.Proof.Gen.ReferenceIdeal
import proofs.«123159_j63161789055035_2_alg».proof.Proof.Gen.ReferenceIdeal.Run
import proofs.«123159_j63161789055035_2_alg».proof.Proof.Gen.ReferenceIdeal.Read
import proofs.«123159_j63161789055035_2_alg».proof.Proof.Gen.Pre_finite_inputs
import proofs.«123159_j63161789055035_2_alg».proof.Proof.KernelValue
import proofs.«123159_j63161789055035_2_alg».proof.Proof.RefValue

noncomputable section

namespace Cert.Proof

open Idealize.ShloMosaic Idealize.ShloMosaic.TcCoe Idealize.SL.Sem
open Cert.Attn

/-- The word-level kernel program runs and leaves its arguments unchanged. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals. -/
theorem preserves : Cert.preserves_Kernel_KernelIdeal := trivial

/-- Both programs end with the attention of the arguments' projections. -/
theorem algebraic : Cert.algebraic_KernelIdeal_ReferenceIdeal := by
  intro m ρ m' ρ' _ hagree
  refine ⟨fun c => selfAttn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Out.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.v22_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
